-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S800000 .f32) (main_arg4 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S2x800000 : Shape := ⟨2, ![2, 800000]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩

abbrev nBuf : Space → Nat
  | .hbm => 68
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S2x800000, .i32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S128x128, .f32⟩
  | .hbm, ⟨47, _⟩ => ⟨S1x128, .f32⟩
  | .hbm, ⟨48, _⟩ => ⟨S50000x128, .f32⟩
  | .hbm, ⟨49, _⟩ => ⟨S850000x1, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S50000_S800000_S850000_d0 : Shape.Concatenates [S50000, S800000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S2x800000 : Shape := ⟨2, ![2, 800000]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S850000x128 : Shape := ⟨2, ![850000, 128]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S2x800000, .i32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S128x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S850000x1, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call1_cst : Ref sig .tc := ⟨.hbm, 67, rfl⟩
abbrev main_call1_v0 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S50000_S800000_S850000_d0 : Shape.Concatenates [S50000, S800000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Linear.lean ====
/-
  The dense layer of the graph convolution, as one function of its three arguments.

  Row r of the layer's output is the affine image of row r of the node features: entry (r, o) is the inner product of
  feature row r with row o of the weight matrix (the weights are stored output-major, so the matrix product is with the
  transpose), plus entry o of the bias. Everything the convolution does afterwards — the degree normalisation, the
  gather of neighbour rows, the scatter-add over the edges and the rectifier — reads the layer's output only as an
  array, so two programs that agree on this function and share what follows agree on their results.
-/
import Idealize.ShloMosaic.PureOps.Ideal
import Idealize.ShloMosaic.Lib.ValueIdx

noncomputable section

namespace Cert.Linear

open Idealize.ShloMosaic Idealize.ShloMosaic.ValueIdx

/-- `affine x w b (r, o) = Σ_k x (r, k) · w (o, k) + b o`, on the extended reals. -/
def affine (x : FVec Ideal ⟨2, ![50000, 128]⟩ .f32) (w : FVec Ideal ⟨2, ![128, 128]⟩ .f32)
    (b : FVec Ideal ⟨1, ![128]⟩ .f32) : FVec Ideal ⟨2, ![50000, 128]⟩ .f32 :=
  fun i => (∑ k : Fin 128, x (ix2 (i 0) k) * w (ix2 (i 1) k)) + b (ix1 (i 1))

/-- The same, at explicit coordinates. -/
theorem affine_apply (x : FVec Ideal ⟨2, ![50000, 128]⟩ .f32) (w : FVec Ideal ⟨2, ![128, 128]⟩ .f32)
    (b : FVec Ideal ⟨1, ![128]⟩ .f32) (r : Fin 50000) (o : Fin 128) :
    affine x w b (ix2 r o) = (∑ k : Fin 128, x (ix2 r k) * w (ix2 o k)) + b (ix1 o) := rfl

end Cert.Linear

end
-- ==== Proof.RefLinear.lean ====
/-
  The reference's dense layer is the affine map.

  The reference transposes the weights, contracts the features with them over the shared axis of length 128, spreads
  the bias first to a row and then down the rows, and adds. Read at an index (r, o): the contraction is the sum over k
  of x (r, k) times the transposed weights at (k, o), which is w (o, k); the twice-broadcast bias is b o.
-/
import proofs.«174570_j17497696764534_1_alg».proof.Proof.Gen.ReferenceIdeal.Read
import proofs.«174570_j17497696764534_1_alg».proof.Proof.Linear

noncomputable section

namespace Cert.RefLinear

open Cert.ReferenceIdeal Cert.ReferenceIdeal.Gen Cert.ReferenceIdeal.Read
open Idealize.ShloMosaic Idealize.ShloMosaic.ValueIdx

/-- The left operand of the contraction is read at (r, k). -/
theorem lhs_index (i : S50000x128.Idx) (k : Fin 128) : lidx_main_v33 i k = ix2 (i 0) k :=
  funext fun a => Fin.ext (by match a with | ⟨0, _⟩ => rfl | ⟨1, _⟩ => rfl)

/-- The right operand is the transpose, read at (k, o): the weights at (o, k). -/
theorem rhs_index (i : S50000x128.Idx) (k : Fin 128) : idx_main_v32 (ridx_main_v33 i k) = ix2 (i 1) k :=
  funext fun a => Fin.ext (by match a with | ⟨0, _⟩ => rfl | ⟨1, _⟩ => rfl)

/-- The bias, spread to a row and then down the rows, is read at o. -/
theorem bias_index (i : S50000x128.Idx) : idx_main_v34 (idx_main_v35 i) = ix1 (i 1) :=
  funext fun a => Fin.ext (by match a with | ⟨0, _⟩ => rfl)

/-- The reference's `x @ W.T + b` is `affine x W b`. -/
theorem ref_affine (a0 : FVec Ideal S50000x128 .f32) (a1 : FVec Ideal S128x128 .f32) (a2 : FVec Ideal S128 .f32) :
    val_main_v36 (F := Ideal) a0 a1 a2 = Cert.Linear.affine a0 a1 a2 := by
  funext i
  rw [val_main_v36_apply, val_main_v33_apply, val_main_v35_apply, val_main_v34_apply]
  simp only [val_main_v32_apply, lhs_index, rhs_index, bias_index]
  rfl

end Cert.RefLinear

end
-- ==== Proof.Aggregate.lean ====
/-
  What the graph convolution does with the dense layer's output, as one function of that output.

  Both programs build the same edge list (a self-loop per node followed by the given edges), the same edge values (one
  per self-loop, then the given weights), the same node degrees (the edge values scatter-added at the source nodes),
  the same inverse square roots of the positive degrees, and the same edge coefficients (inverse root at the source,
  times the edge value, times the inverse root at the target). With y the dense layer's output they then gather row
  target(e) of y for every edge e, scale it by the edge's coefficient, scatter-add the scaled rows at the source
  nodes into zeros, and take the maximum with zero. `aggregate` is that last stretch with y left free; the stages
  before it are the reference's own, which depend on the edge arguments only.
-/
import proofs.«174570_j17497696764534_1_alg».proof.Proof.Gen.ReferenceIdeal.Read

noncomputable section

namespace Cert.Aggregate

open Cert.ReferenceIdeal Cert.ReferenceIdeal.Gen Cert.ReferenceIdeal.Read
open Idealize.ShloMosaic

variable {F : FTy → Type} [FloatOps F]

/-- relu (Σ_{e : source e = r} coeff e · y (target e, ·)), as the host operations compute it. -/
def aggregate (a3 : (⟨S800000, .f32⟩ : BufTy).Contents (Elt F)) (a4 : (⟨S2x800000, .i32⟩ : BufTy).Contents (Elt F))
    (y : (⟨S50000x128, .f32⟩ : BufTy).Contents (Elt F)) : (⟨S50000x128, .f32⟩ : BufTy).Contents (Elt F) :=
  maximumf
    (Host.scatterAdd scatter_S50000x128_S850000x1_S850000x128_1_0_0_1 (val_main_v47 (F := F)) (val_main_v48 (F := F) a4)
      (mulf (val_main_v45 (F := F) a3 a4)
        (Host.gather gather_S50000x128_S850000x1_S850000x128_1_0_n_n_0_1_1128 y (val_main_v43 (F := F) a4))))
    (val_main_call1_v0 (F := F))

/-- The reference's result is `aggregate` of its dense layer. -/
theorem ref_eq (a0 : (⟨S50000x128, .f32⟩ : BufTy).Contents (Elt F)) (a1 : (⟨S128x128, .f32⟩ : BufTy).Contents (Elt F))
    (a2 : (⟨S128, .f32⟩ : BufTy).Contents (Elt F)) (a3 : (⟨S800000, .f32⟩ : BufTy).Contents (Elt F))
    (a4 : (⟨S2x800000, .i32⟩ : BufTy).Contents (Elt F)) :
    val_main_v50 (F := F) a0 a1 a2 a3 a4 = aggregate a3 a4 (val_main_v36 (F := F) a0 a1 a2) := rfl

end Cert.Aggregate

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KernelBlock.lean ====
/-
  The kernel body's stored value, at an index.

  At one grid point the body holds a block of 5000 feature rows, the whole transposed weight matrix and the bias as a
  row. It narrows the two matrix operands (at the ideal instance a change of format is the identity), multiplies them
  on the matrix unit into a zero accumulator, spreads the bias row down the 5000 rows and adds. Entry (p, q) of the
  stored block is therefore Σ_k x (p, k) · wt (k, q) + b (0, q).
-/
import proofs.«174570_j17497696764534_1_alg».proof.Proof.Gen.KernelIdeal.Skeleton
import proofs.«174570_j17497696764534_1_alg».proof.Proof.LibPlainDot
import Idealize.ShloMosaic.Lib.Pipeline.Value
import Idealize.ShloMosaic.Lib.ValueIdx
import Idealize.ShloMosaic.Lib.ValueLayout

noncomputable section

namespace Cert.KernelBlock

open Cert.KernelIdeal Cert.KernelIdeal.Gen
open Idealize.ShloMosaic Idealize.ShloMosaic.ValueIdx

/-- The body's contraction is the plain one: rows of the left operand against columns of the right. -/
theorem dot_plain : dot_S5000x128_S128x128_S5000x128_1_0_0_1_n_n = DotDims.plain 5000 128 128 := rfl

/-- Entry (p, q) of what the body stores: the inner product of feature row p with column q of the transposed
    weights, plus the bias row's entry q. -/
theorem payload_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = (∑ k : Fin 128, x0 (ix2 p k) * x1 (ix2 k q)) + x2 (ix2 (0 : Fin 1) q) := by
  unfold k0_pay1
  rw [addf_apply, broadcastTo_1b_ab_apply, shapeCast_self, shapeCast_self, dot_plain]
  exact congrArg (· + x2 (ix2 (0 : Fin 1) q))
    (Cert.LibPlainDot.matmul_zero_apply 5000 128 128 none (truncf .bf16 x0 bitsLt_bf16_f32)
      (truncf .bf16 x1 bitsLt_bf16_f32) (ix2 p q))

end Cert.KernelBlock

end
-- ==== Proof.KernelArray.lean ====
/-
  The array the kernel region leaves: the dense layer of the node features.

  The region runs over ten grid points. Point t stages rows 5000 t … 5000 t + 4999 of the features, the whole
  transposed weight matrix and the bias as a row, and writes back rows 5000 t … 5000 t + 4999 of the output. The
  host lines before the region prepare two of its operands: the weights transposed and the bias reshaped to a row.
  Entry (5000 t + p, q) of the written block is the body's stored entry (p, q), which is the affine map's entry at
  that row; the ten blocks tile the output, so the array ends as the affine map of the three arguments.
-/
import proofs.«174570_j17497696764534_1_alg».proof.Proof.Gen.KernelIdeal.Frame
import proofs.«174570_j17497696764534_1_alg».proof.Proof.KernelBlock
import proofs.«174570_j17497696764534_1_alg».proof.Proof.Linear
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelArray

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ)

/-! ## The two operands the host prepares -/

set_option maxHeartbeats 4000000 in
/-- The region finds the weights transposed. -/
theorem weights_entry (c : Dev nD) :
    (V m c main_v32 : S128x128.Idx → EReal)
      = transpose S128x128 [1, 0] (m ((c.tc : Thread nD τ).loc main_arg1)) transposes_S128x128_S128x128_1_0 := by
  dsimp only [V, V0]
  simp only [hostOps0, hostOps0_1, hostOps0_2, List.flatten_cons, List.flatten_nil, List.append_nil, List.cons_append,
    List.nil_append]
  after_results_simp

set_option maxHeartbeats 4000000 in
/-- The region finds the bias as a row. -/
theorem bias_entry (c : Dev nD) :
    (V m c main_v33 : S1x128.Idx → EReal)
      = shapeCast S1x128 (m ((c.tc : Thread nD τ).loc main_arg2)) shapeCasts_S128_S1x128 := by
  dsimp only [V, V0]
  simp only [hostOps0, hostOps0_1, hostOps0_2, List.flatten_cons, List.flatten_nil, List.append_nil, List.cons_append,
    List.nil_append]
  after_results_simp
  rfl

/-! ## One grid point's block -/

theorem zero_offsets : (![0, 0] : Fin 2 → Nat) = fun _ => 0 := funext fun a => by fin_cases a <;> rfl

/-- Which block each window holds at point t: the features and the output move down the rows with t, the weights
    and the bias stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored entry (p, q) from blocks that read the arguments at row r: the affine map's entry (r, q). -/
theorem stored_entry (X0 : Vec Ideal S5000x128 .f32) (X1 : Vec Ideal S128x128 .f32) (X2 : Vec Ideal S1x128 .f32)
    (a0 : FVec Ideal ⟨2, ![50000, 128]⟩ .f32) (a1 : FVec Ideal ⟨2, ![128, 128]⟩ .f32) (a2 : FVec Ideal ⟨1, ![128]⟩ .f32)
    (r : Fin 50000) (p : Fin 5000) (q : Fin 128)
    (h0 : ∀ k : Fin 128, X0 (ix2 p k) = a0 (ix2 r k)) (h1 : ∀ k : Fin 128, X1 (ix2 k q) = a1 (ix2 q k))
    (h2 : X2 (ix2 (0 : Fin 1) q) = a2 (ix1 q)) :
    k0_pay1 (F := Ideal) X0 X1 X2 (ix2 p q) = Cert.Linear.affine a0 a1 a2 (ix2 r q) := by
  rw [Cert.KernelBlock.payload_apply, Cert.Linear.affine_apply, h2]
  exact congrArg (· + a2 (ix1 q)) (Finset.sum_congr rfl fun k _ => by rw [h0, h1])

/-- What point t writes back is its block of the affine map of the three arguments. -/
theorem flushed_eq (c : Dev nD) (t : Fin cfg0.N) :
    (dats m 0 c).flushed 3 t = ((cfg0.win 3).blk t).view.read (Elt Ideal)
      (Cert.Linear.affine (m ((c.tc : Thread nD τ).loc main_arg0)) (m ((c.tc : Thread nD τ).loc main_arg1))
        (m ((c.tc : Thread nD τ).loc main_arg2))) := by
  show (cfg0.win 3).cut (grid0.coords t) ((dats m 0 c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31⟩ := block_indices t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hq : q.val < 128 := q.isLt
  show k0_pay1 (F := Ideal) (iblk m c 0 t) (iblk m c 1 t) (iblk m c 2 t) (ix2 p q)
    = Cert.Linear.affine _ _ _ (((cfg0.win 3).blk t).view.emb (ix2 p q))
  have hrow : ((cfg0.win 3).blk t).view.emb (ix2 p q)
      = ix2 (⟨t.val * 5000 + p.val, by omega⟩ : Fin 50000) q := by
    funext a; apply Fin.ext
    match a with
    | ⟨0, _⟩ => show win0_3.index t (0 : Fin 2) * 5000 + 1 * p.val = t.val * 5000 + p.val; rw [e30]; omega
    | ⟨1, _⟩ => show win0_3.index t (1 : Fin 2) * 128 + 1 * q.val = q.val; rw [e31]; omega
  rw [hrow]
  refine stored_entry _ _ _ _ _ _ _ p q (fun k => ?_) (fun k => ?_) ?_
  · -- the features' block at point t is rows 5000 t … of the features
    have hk : k.val < 128 := k.isLt
    show V m c main_arg0 (((cfg0.win 0).blk t).view.emb (ix2 p k)) = _
    rw [V_main_arg0]
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · -- the weights' block is the whole transposed matrix
    have hk : k.val < 128 := k.isLt
    show (V m c main_v32 : S128x128.Idx → EReal) (((cfg0.win 1).blk t).view.emb (ix2 k q)) = _
    have hidx : ((cfg0.win 1).blk t).view.emb (ix2 k q) = ix2 k q := by
      funext a; apply Fin.ext
      match a with
      | ⟨0, _⟩ => show win0_1.index t (0 : Fin 2) * 128 + 1 * k.val = k.val; rw [e10]; omega
      | ⟨1, _⟩ => show win0_1.index t (1 : Fin 2) * 128 + 1 * q.val = q.val; rw [e11]; omega
    rw [hidx, weights_entry]
    exact transpose_ix2_apply _ _ k q
  · -- the bias' block is the whole row
    show (V m c main_v33 : S1x128.Idx → EReal) (((cfg0.win 2).blk t).view.emb (ix2 (0 : Fin 1) q)) = _
    have hidx : ((cfg0.win 2).blk t).view.emb (ix2 (0 : Fin 1) q) = ix2 (0 : Fin 1) q := by
      funext a; apply Fin.ext
      match a with
      | ⟨0, _⟩ => show win0_2.index t (0 : Fin 2) * 1 + 1 * 0 = 0; rw [e20]
      | ⟨1, _⟩ => show win0_2.index t (1 : Fin 2) * 128 + 1 * q.val = q.val; rw [e21]; omega
    rw [hidx, bias_entry]
    exact shapeCast_a_1a_apply _ _ 0 q

/-! ## The ten blocks tile the output -/

/-- An index of the output is in point t's block iff its coordinates are in the block's ranges. -/
theorem mem_block (t : Fin cfg0.N) (i : S50000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v34).slice (win0_3.rect t)).set ↔ _
  rw [View.set_slice_whole, Rect.mem_set_unit]
  exact Iff.rfl

/-- Row r of the output is written by point r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e30, e31⟩ := block_indices t
  refine ⟨t, flush0_3 t, ?_⟩
  rw [mem_block]
  intro a
  have htv : t.val = (i 0).val / 5000 := rfl
  match a with
  | ⟨0, _⟩ =>
    show win0_3.index t (0 : Fin 2) * 5000 ≤ (i 0).val ∧ (i 0).val < win0_3.index t (0 : Fin 2) * 5000 + 5000
    rw [e30, htv]; omega
  | ⟨1, _⟩ =>
    show win0_3.index t (1 : Fin 2) * 128 ≤ (i 1).val ∧ (i 1).val < win0_3.index t (1 : Fin 2) * 128 + 128
    rw [e31]; omega

/-- After the region the output array is the affine map of the three arguments. -/
theorem region_output (c : Dev nD) :
    (dats m 0 c).arrAt 3 cfg0.N
      = Cert.Linear.affine (m ((c.tc : Thread nD τ).loc main_arg0)) (m ((c.tc : Thread nD τ).loc main_arg1))
          (m ((c.tc : Thread nD τ).loc main_arg2)) :=
  (dats m 0 c).arrAt_eq_of_cover 3 _ (fun t _ => flushed_eq m c t) (covered)

end Cert.KernelArray

end
-- ==== Proof.KernelTail.lean ====
/-
  The kernel program after its region: the aggregation of the region's output.

  The host lines before the region compute, from the edge arguments alone, the source list, the target list and the
  edge coefficients; the lines after it gather the target rows of the region's output, scale them, scatter-add them at
  the sources and rectify. These are, operation for operation, the reference's own stages, so the kernel program's
  result is `aggregate` of the edge arguments and of whatever array the region left.
-/
import proofs.«174570_j17497696764534_1_alg».proof.Proof.Gen.KernelIdeal.Frame
import proofs.«174570_j17497696764534_1_alg».proof.Proof.Aggregate
import Idealize.ShloMosaic.Lib.StableHlo.Run

set_option maxRecDepth 16384

noncomputable section

namespace Cert.KernelTail

open Cert.KernelIdeal Cert.KernelIdeal.Gen
open Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ)

/-! ## What the region finds of the edge arguments -/

set_option maxHeartbeats 8000000 in
/-- The source list: a self-loop per node, then the given sources. -/
theorem sources_entry (c : Dev nD) :
    (V0 m c (Proc.devRef .tc main_v3) : (⟨S850000, .i32⟩ : BufTy).Contents (Elt F))
      = Cert.ReferenceIdeal.Read.val_main_v3 (F := F) (m ((c.tc : Thread nD τ).loc main_arg4)) := by
  dsimp only [V0]
  simp only [hostOps0, hostOps0_1, hostOps0_2, List.flatten_cons, List.flatten_nil, List.append_nil, List.cons_append,
    List.nil_append]
  after_results_simp
  rfl

set_option maxHeartbeats 8000000 in
/-- The target list: a self-loop per node, then the given targets. -/
theorem targets_entry (c : Dev nD) :
    (V0 m c (Proc.devRef .tc main_v6) : (⟨S850000, .i32⟩ : BufTy).Contents (Elt F))
      = Cert.ReferenceIdeal.Read.val_main_v6 (F := F) (m ((c.tc : Thread nD τ).loc main_arg4)) := by
  dsimp only [V0]
  simp only [hostOps0, hostOps0_1, hostOps0_2, List.flatten_cons, List.flatten_nil, List.append_nil, List.cons_append,
    List.nil_append]
  after_results_simp
  rfl

set_option maxHeartbeats 40000000 in
/-- The edge coefficients: inverse root of the source's degree, times the edge value, times inverse root of the
    target's degree. -/
theorem coefficients_entry (c : Dev nD) :
    (V0 m c (Proc.devRef .tc main_v31) : (⟨S850000, .f32⟩ : BufTy).Contents (Elt F))
      = Cert.ReferenceIdeal.Read.val_main_v31 (F := F) (m ((c.tc : Thread nD τ).loc main_arg3))
          (m ((c.tc : Thread nD τ).loc main_arg4)) := by
  dsimp only [V0]
  simp only [hostOps0, hostOps0_1, hostOps0_2, List.flatten_cons, List.flatten_nil, List.append_nil, List.cons_append,
    List.nil_append]
  after_results_simp
  rfl

/-! ## After the region -/

set_option maxHeartbeats 40000000 in
/-- The kernel program's result is the aggregation of the array its region left. -/
theorem result_eq (c : Dev nD) :
    (Pipeline.afterTail₀ cfgs (dats m) 0 (V0 m) [hostOps1, hostOps1_1] c main_v48
        : (⟨S50000x128, .f32⟩ : BufTy).Contents (Elt F))
      = Cert.Aggregate.aggregate (F := F) (m ((c.tc : Thread nD τ).loc main_arg3)) (m ((c.tc : Thread nD τ).loc main_arg4))
          ((dats m 0 c).arrAt 3 cfg0.N) := by
  unfold Pipeline.afterTail₀
  simp only [hostOps1, hostOps1_1, List.flatten_cons, List.flatten_nil, List.append_nil, List.cons_append, List.nil_append]
  after_results_simp
  have hsrc := Pipeline.withArrays_of_ne (cfgs 0).spec c (V0 m c) (fun w => (dats m 0 c).arrAt w (cfgs 0).N) main_v3
    (by exact (by decide : ∀ w, Pipeline.arrRef spec0 w ≠ main_v3))
  have htgt := Pipeline.withArrays_of_ne (cfgs 0).spec c (V0 m c) (fun w => (dats m 0 c).arrAt w (cfgs 0).N) main_v6
    (by exact (by decide : ∀ w, Pipeline.arrRef spec0 w ≠ main_v6))
  have hcoef := Pipeline.withArrays_of_ne (cfgs 0).spec c (V0 m c) (fun w => (dats m 0 c).arrAt w (cfgs 0).N) main_v31
    (by exact (by decide : ∀ w, Pipeline.arrRef spec0 w ≠ main_v31))
  have hout : Pipeline.withArrays (cfgs 0).spec c (V0 m c) (fun w => (dats m 0 c).arrAt w (cfgs 0).N)
      (Proc.devRef .tc main_v34) = (dats m 0 c).arrAt 3 (cfgs 0).N :=
    Pipeline.withArrays_arr spec0 launch0.win.arr_inj c (V0 m c) (fun w => (dats m 0 c).arrAt w (cfgs 0).N) 3
  rw [hsrc, htgt, hcoef, hout, sources_entry, targets_entry, coefficients_entry]
  rfl

end Cert.KernelTail

end
-- ==== Proof.lean ====
/-
  A graph convolution: the kernel program against its reference, at the ideal instance.

  Both programs compute relu (Σ_{e : source e = r} coeff e · y (target e, ·)) for every node r, where the edge list is a
  self-loop per node followed by the given edges, coeff e is the symmetric degree normalisation (inverse square root
  of the source's degree, times the edge value, times the inverse square root of the target's degree, an inverse root
  being replaced by zero where the degree is not positive), and y = x Wᵀ + b is a dense layer of the node features.
  They differ only in how y is produced. The reference contracts x with the transposed weights in one host
  operation and adds the bias broadcast over the rows. The kernel program runs a region over ten blocks of 5000 rows:
  each point narrows its block of x and the transposed weights (the identity on extended reals), multiplies them on
  the matrix unit into a zero accumulator and adds the bias row. Entry (r, o) is Σ_k x (r, k) · W (o, k) + b o on both
  sides — the same sum of the same 128 products, so no law of the extended reals beyond that is used and the
  finiteness of the inputs is never opened. The stages before and after the dense layer are the same host operations
  in both programs; they are kept closed as one function of y (`Cert.Aggregate.aggregate`).

  The idealization rewrote no operation, so that conjunct is trivial; the kernel programs' frames are the generated
  ones, the reference's is its generated run with the result dropped.
-/
import proofs.«174570_j17497696764534_1_alg».proof.Defs
import proofs.«174570_j17497696764534_1_alg».proof.Proof.Gen.Kernel
import proofs.«174570_j17497696764534_1_alg».proof.Proof.Gen.Kernel.Skeleton
import proofs.«174570_j17497696764534_1_alg».proof.Proof.Gen.Kernel.Launch
import proofs.«174570_j17497696764534_1_alg».proof.Proof.Gen.Kernel.Points
import proofs.«174570_j17497696764534_1_alg».proof.Proof.Gen.Kernel.Frame
import proofs.«174570_j17497696764534_1_alg».proof.Proof.Gen.KernelIdeal
import proofs.«174570_j17497696764534_1_alg».proof.Proof.Gen.KernelIdeal.Skeleton
import proofs.«174570_j17497696764534_1_alg».proof.Proof.Gen.KernelIdeal.Launch
import proofs.«174570_j17497696764534_1_alg».proof.Proof.Gen.KernelIdeal.Points
import proofs.«174570_j17497696764534_1_alg».proof.Proof.Gen.KernelIdeal.Frame
import proofs.«174570_j17497696764534_1_alg».proof.Proof.Gen.ReferenceIdeal
import proofs.«174570_j17497696764534_1_alg».proof.Proof.Gen.Pre_finite_inputs
import proofs.«174570_j17497696764534_1_alg».proof.Proof.Gen.ReferenceIdeal.Run
import proofs.«174570_j17497696764534_1_alg».proof.Proof.Gen.ReferenceIdeal.Read
import proofs.«174570_j17497696764534_1_alg».proof.Proof.Linear
import proofs.«174570_j17497696764534_1_alg».proof.Proof.RefLinear
import proofs.«174570_j17497696764534_1_alg».proof.Proof.Aggregate
import proofs.«174570_j17497696764534_1_alg».proof.Proof.KernelArray
import proofs.«174570_j17497696764534_1_alg».proof.Proof.KernelTail
import Idealize.ShloMosaic.Adequacy
import Idealize.ShloMosaic.Init

noncomputable section

namespace Cert.Proof

open Idealize.ShloMosaic Idealize.ShloMosaic.TcCoe Idealize.SL.Sem

section KernelProgram

open Cert.KernelIdeal Cert.KernelIdeal.Gen

/-- The idealized kernel program runs to the aggregation of the affine map of its arguments, the arguments unchanged:
    the region leaves the affine map (its ten blocks tile the output), the lines after it aggregate what it left. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48)
        = Cert.Aggregate.aggregate (F := Ideal) (m ((c.tc : Thread nD τ).loc main_arg3))
            (m ((c.tc : Thread nD τ).loc main_arg4))
            (Cert.Linear.affine (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v48 (Pipeline.mem_restRefs_of main_v48 (by decide) (by decide))).trans
        ((Cert.KernelTail.result_eq m c).trans
          (congrArg (Cert.Aggregate.aggregate (F := Ideal) _ _) (Cert.KernelArray.region_output m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end KernelProgram

/-- From memories agreeing on the arguments both programs end at the aggregation of the affine map: the kernel
    program by its run above; the reference by its generated run, whose last stage is the aggregation of its own
    dense layer, which is the affine map. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.Aggregate.ref_eq, Cert.RefLinear.ref_affine,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
